-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x32000 : Shape := ⟨3, ![8, 512, 32000]⟩
abbrev S8x512 : Shape := ⟨2, ![8, 512]⟩
abbrev S8x1 : Shape := ⟨2, ![8, 1]⟩
abbrev S_ : Shape := ⟨0, ![]⟩

class Facts : Prop where
  bcast_S_S8x512x32000 : S_.BroadcastsInDim S8x512x32000 (![] : Fin 0 → Fin S8x512x32000.rank)
  reducesTo_S8x512x32000_S_d0_1_2 : S8x512x32000.ReducesTo [0, 1, 2] S_
  h_S_ : 0 < S_.numel

variable [Facts]

def fn {F : FTy → Type} [FloatOps F] (main_arg0 : FVec F S8x512x32000 .f32) (main_arg1 : IVec S8x512 32) (main_arg2 : IVec S8x1 32) : IVec S_ 1 :=
  let main_v0 : FVec F S8x512x32000 .f32 := Host.absf main_arg0
  let main_cst : FVec F S_ .f32 := constant S_ .f32 0x7F800000#32
  let main_v1 : FVec F S8x512x32000 .f32 := broadcastInDim S8x512x32000 ![] bcast_S_S8x512x32000 main_cst
  let main_v2 : IVec S8x512x32000 1 := cmpf .olt main_v0 main_v1
  let main_c : IVec S_ 1 := constantI S_ 1 1#1
  let main_v3 : IVec S_ 1 := (fun x v => Host.reduce IntOp.andi x v reducesTo_S8x512x32000_S_d0_1_2 h_S_) main_v2 main_c
  main_v3
-- ==== Kernel.lean ====
abbrev S8x512x32000 : Shape := ⟨3, ![8, 512, 32000]⟩
abbrev S8x512 : Shape := ⟨2, ![8, 512]⟩
abbrev S8x1 : Shape := ⟨2, ![8, 1]⟩
abbrev S8x512x1 : Shape := ⟨3, ![8, 512, 1]⟩
abbrev S1x64x32000 : Shape := ⟨3, ![1, 64, 32000]⟩
abbrev S1x64x1 : Shape := ⟨3, ![1, 64, 1]⟩
abbrev S64x32000 : Shape := ⟨2, ![64, 32000]⟩
abbrev S64 : Shape := ⟨1, ![64]⟩
abbrev S64x1 : Shape := ⟨2, ![64, 1]⟩
abbrev S_ : Shape := ⟨0, ![]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S512 : Shape := ⟨1, ![512]⟩
abbrev S1x512 : Shape := ⟨2, ![1, 512]⟩

abbrev nBuf : Space → Nat
  | .hbm => 49
  | .vmem => 4
  | .smem => 0
  | _ => 0

abbrev bufTy : (tb : Table) → Fin (tcTables nBuf tb) → BufTy
  | .hbm, ⟨0, _⟩ => ⟨S8x512x32000, .f32⟩
  | .hbm, ⟨1, _⟩ => ⟨S8x512, .i32⟩
  | .hbm, ⟨2, _⟩ => ⟨S8x1, .i32⟩
  | .hbm, ⟨3, _⟩ => ⟨S8x512x1, .f32⟩
  | .hbm, ⟨4, _⟩ => ⟨S8x512, .f32⟩
  | .hbm, ⟨5, _⟩ => ⟨S8x512x1, .i32⟩
  | .hbm, ⟨6, _⟩ => ⟨S_, .i32⟩
  | .hbm, ⟨7, _⟩ => ⟨S8x512x1, .i32⟩
  | .hbm, ⟨8, _⟩ => ⟨S8x512x1, .i1⟩
  | .hbm, ⟨9, _⟩ => ⟨S_, .i32⟩
  | .hbm, ⟨10, _⟩ => ⟨S8x512x1, .i32⟩
  | .hbm, ⟨11, _⟩ => ⟨S8x512x1, .i32⟩
  | .hbm, ⟨12, _⟩ => ⟨S8x512x1, .i32⟩
  | .hbm, ⟨13, _⟩ => ⟨S8x512x1x1, .i32⟩
  | .hbm, ⟨14, _⟩ => ⟨S1, .i32⟩
  | .hbm, ⟨15, _⟩ => ⟨S_, .i32⟩
  | .hbm, ⟨16, _⟩ => ⟨S8x512x1x1, .i32⟩
  | .hbm, ⟨17, _⟩ => ⟨S8x512x1x1, .i1⟩
  | .hbm, ⟨18, _⟩ => ⟨S1x1x1x1, .i32⟩
  | .hbm, ⟨19, _⟩ => ⟨S8x512x1x1, .i32⟩
  | .hbm, ⟨20, _⟩ => ⟨S8x512x1x1, .i1⟩
  | .hbm, ⟨21, _⟩ => ⟨S8x512x1x1, .i1⟩
  | .hbm, ⟨22, _⟩ => ⟨S_, .i1⟩
  | .hbm, ⟨23, _⟩ => ⟨S8x512x1, .i1⟩
  | .hbm, ⟨24, _⟩ => ⟨S8x512x1, .f32⟩
  | .hbm, ⟨25, _⟩ => ⟨S_, .f32⟩
  | .hbm, ⟨26, _⟩ => ⟨S8x512x1, .f32⟩
  | .hbm, ⟨27, _⟩ => ⟨S8x512x1, .f32⟩
  | .hbm, ⟨28, _⟩ => ⟨S8x512, .f32⟩
  | .hbm, ⟨29, _⟩ => ⟨S8x512, .f32⟩
  | .hbm, ⟨30, _⟩ => ⟨S8, .i32⟩
  | .hbm, ⟨31, _⟩ => ⟨S512, .i32⟩
  | .hbm, ⟨32, _⟩ => ⟨S1x512, .i32⟩
  | .hbm, ⟨33, _⟩ => ⟨S8x1, .i32⟩
  | .hbm, ⟨34, _⟩ => ⟨S8x512, .i32⟩
  | .hbm, ⟨35, _⟩ => ⟨S8x512, .i32⟩
  | .hbm, ⟨36, _⟩ => ⟨S8x512, .i1⟩
  | .hbm, ⟨37, _⟩ => ⟨S_, .f32⟩
  | .hbm, ⟨38, _⟩ => ⟨S_, .f32⟩
  | .hbm, ⟨39, _⟩ => ⟨S8x512, .f32⟩
  | .hbm, ⟨40, _⟩ => ⟨S8x512, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1x64x32000, .f32⟩
  | .local _ .vmem, ⟨1, _⟩ => ⟨S1x64x32000, .f32⟩
  | .local _ .vmem, ⟨2, _⟩ => ⟨S1x64x1, .f32⟩
  | .local _ .vmem, ⟨3, _⟩ => ⟨S1x64x1, .f32⟩
  | _, _ => ⟨S8x512x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x32000_S1x64x32000_0_0_0 : ∀ a, (![0, 0, 0] : Fin 3 → Nat) a + S1x64x32000.size a ≤ S1x64x32000.size a
  h_S1x64x32000 : 0 < S1x64x32000.numel
  shapeCasts_S1x64x32000_S64x32000 : S1x64x32000.ShapeCasts S64x32000
  reduces_S64x32000_S64 : S64x32000.Reduces [1] S64
  shapeCasts_S64_S64x1 : S64.ShapeCasts S64x1
  broadcasts_S64x1_S64x32000 : S64x1.Broadcasts S64x32000
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x512x1_S8x512 : S8x512x1.ShapeCasts S8x512
  bcast_S8x512_S8x512x1_0_1 : S8x512.BroadcastsInDim S8x512x1 (![0, 1] : Fin 2 → Fin S8x512x1.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  h_S_ : 0 < S_.numel
  shapeCasts_S8x1_S8 : S8x1.ShapeCasts S8
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  reducesTo_S8x512_S8_d1 : S8x512.ReducesTo [1] S8
  reducesTo_S8_S_d0 : S8.ReducesTo [0] S_
  gather_S8x512x32000_S8x512x1x1_S8x512x1_n_2_01_01_2_3_111_wf : GatherDims.WF S8x512x32000 S8x512x1x1 S8x512x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32000.size a ≤ S8x512x32000.size a
  hwx0_0 : ∀ i : grid0.Coords, EltTy.bits .f32 = 32 ∨ (Rect.block (s := S8x512x32000) S1x64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S8x512x1.size a
  hwx0_1 : ∀ i : grid0.Coords, EltTy.bits .f32 = 32 ∨ (Rect.block (s := S8x512x1) S1x64x1.size (cc0_transform_1 i) (hinb0_1 i)).WholeWords (EltTy.packing .f32)

variable [Facts₀]

def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

abbrev win0_0 : Pipeline.Window sig grid0 :=
  Pipeline.Window.ofSpec (Memref.whole main_arg0) S1x64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x32000 : Shape := ⟨3, ![8, 512, 32000]⟩
abbrev S8x512 : Shape := ⟨2, ![8, 512]⟩
abbrev S8x1 : Shape := ⟨2, ![8, 1]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S512 : Shape := ⟨1, ![512]⟩
abbrev S1x512 : Shape := ⟨2, ![1, 512]⟩

abbrev nBuf : Space → Nat
  | .hbm => 60
  | .vmem => 0
  | .smem => 0
  | _ => 0

abbrev bufTy : (tb : Table) → Fin (tcTables nBuf tb) → BufTy
  | .hbm, ⟨0, _⟩ => ⟨S8x512x32000, .f32⟩
  | .hbm, ⟨1, _⟩ => ⟨S8x512, .i32⟩
  | .hbm, ⟨2, _⟩ => ⟨S8x1, .i32⟩
  | .hbm, ⟨3, _⟩ => ⟨S_, .f32⟩
  | .hbm, ⟨4, _⟩ => ⟨S8x512, .f32⟩
  | .hbm, ⟨5, _⟩ => ⟨S_, .f32⟩
  | .hbm, ⟨6, _⟩ => ⟨S8x512, .f32⟩
  | .hbm, ⟨7, _⟩ => ⟨S8x512, .f32⟩
  | .hbm, ⟨8, _⟩ => ⟨S8x512x1, .f32⟩
  | .hbm, ⟨9, _⟩ => ⟨S8x512x32000, .f32⟩
  | .hbm, ⟨10, _⟩ => ⟨S8x512x32000, .f32⟩
  | .hbm, ⟨11, _⟩ => ⟨S8x512x32000, .f32⟩
  | .hbm, ⟨12, _⟩ => ⟨S_, .f32⟩
  | .hbm, ⟨13, _⟩ => ⟨S8x512, .f32⟩
  | .hbm, ⟨14, _⟩ => ⟨S8x512x1, .f32⟩
  | .hbm, ⟨15, _⟩ => ⟨S8x512x1, .f32⟩
  | .hbm, ⟨16, _⟩ => ⟨S8x512x32000, .f32⟩
  | .hbm, ⟨17, _⟩ => ⟨S8x512x32000, .f32⟩
  | .hbm, ⟨18, _⟩ => ⟨S8x512x1, .i32⟩
  | .hbm, ⟨19, _⟩ => ⟨S_, .i32⟩
  | .hbm, ⟨20, _⟩ => ⟨S8x512x1, .i32⟩
  | .hbm, ⟨21, _⟩ => ⟨S8x512x1, .i1⟩
  | .hbm, ⟨22, _⟩ => ⟨S_, .i32⟩
  | .hbm, ⟨23, _⟩ => ⟨S8x512x1, .i32⟩
  | .hbm, ⟨24, _⟩ => ⟨S8x512x1, .i32⟩
  | .hbm, ⟨25, _⟩ => ⟨S8x512x1, .i32⟩
  | .hbm, ⟨26, _⟩ => ⟨S8x512x1x1, .i32⟩
  | .hbm, ⟨27, _⟩ => ⟨S1, .i32⟩
  | .hbm, ⟨28, _⟩ => ⟨S_, .i32⟩
  | .hbm, ⟨29, _⟩ => ⟨S8x512x1x1, .i32⟩
  | .hbm, ⟨30, _⟩ => ⟨S8x512x1x1, .i1⟩
  | .hbm, ⟨31, _⟩ => ⟨S1x1x1x1, .i32⟩
  | .hbm, ⟨32, _⟩ => ⟨S8x512x1x1, .i32⟩
  | .hbm, ⟨33, _⟩ => ⟨S8x512x1x1, .i1⟩
  | .hbm, ⟨34, _⟩ => ⟨S8x512x1x1, .i1⟩
  | .hbm, ⟨35, _⟩ => ⟨S_, .i1⟩
  | .hbm, ⟨36, _⟩ => ⟨S8x512x1, .i1⟩
  | .hbm, ⟨37, _⟩ => ⟨S8x512x1, .f32⟩
  | .hbm, ⟨38, _⟩ => ⟨S_, .f32⟩
  | .hbm, ⟨39, _⟩ => ⟨S8x512x1, .f32⟩
  | .hbm, ⟨40, _⟩ => ⟨S8x512x1, .f32⟩
  | .hbm, ⟨41, _⟩ => ⟨S8x512, .f32⟩
  | .hbm, ⟨42, _⟩ => ⟨S8x512, .f32⟩
  | .hbm, ⟨43, _⟩ => ⟨S8, .i32⟩
  | .hbm, ⟨44, _⟩ => ⟨S512, .i32⟩
  | .hbm, ⟨45, _⟩ => ⟨S1x512, .i32⟩
  | .hbm, ⟨46, _⟩ => ⟨S8x1, .i32⟩
  | .hbm, ⟨47, _⟩ => ⟨S8x512, .i32⟩
  | .hbm, ⟨48, _⟩ => ⟨S8x512, .i32⟩
  | .hbm, ⟨49, _⟩ => ⟨S8x512, .i1⟩
  | .hbm, ⟨50, _⟩ => ⟨S8x512, .f32⟩
  | .hbm, ⟨51, _⟩ => ⟨S8x512, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_0 : Ref sig .tc := ⟨.hbm, 56, rfl⟩
abbrev main_v17 : Ref sig .tc := ⟨.hbm, 57, rfl⟩
abbrev main_cst_1 : Ref sig .tc := ⟨.hbm, 58, rfl⟩
abbrev main_v18 : Ref sig .tc := ⟨.hbm, 59, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  shapeCasts_S8x1_S8 : S8x1.ShapeCasts S8
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  reducesTo_S8x512_S8_d1 : S8x512.ReducesTo [1] S8
  reducesTo_S8_S_d0 : S8.ReducesTo [0] S_
  gather_S8x512x32000_S8x512x1x1_S8x512x1_n_2_01_01_2_3_111_wf : GatherDims.WF S8x512x32000 S8x512x1x1 S8x512x1 [] [2] [0, 1] [2] [0, 1] 3 ![1, 1, 1]

variable [Facts₀]

def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.Shared.lean ====
/-
  What the two programs have in common, named once.

  Both programs read one entry per token by the same gather along the last axis (the target made non-negative by adding
  the axis length where it is negative, a bounds test, the gather, and a select between the gathered entry and a fill
  value where the test fails): `takeOf a t` is that chain as ONE function of the array `a` gathered from and the target
  `t`.  Both programs end with the same tail: the sum of each batch's masked per-token values divided by the batch's
  length, then the mean over the batch: `tailOf w n` of the masked values `w` and the lengths `n`.  Between the two the
  programs differ: the reference negates the gathered log-softmax entry and multiplies by the validity mask read as a
  number (its stage `val_main_v13`), the kernel subtracts the gathered logit from its log-sum-exp array and selects
  against zero by the same mask (`maskedK`).
-/
import proofs.«102475_j87522843558384_2_alg».proof.Proof.RefRead

noncomputable section

namespace Cert.ReferenceIdeal.Shared

open Cert.ReferenceIdeal Cert.ReferenceIdeal.Gen Cert.ReferenceIdeal.ReadP Idealize.ShloMosaic

variable {F : FTy → Type} [FloatOps F]

/-- One entry per token of `a`, gathered at the target, the fill value where the target is out of range. -/
def takeOf (a : (⟨S8x512x32000, .f32⟩ : BufTy).Contents (Elt F)) (x1 : (⟨S8x512, .i32⟩ : BufTy).Contents (Elt F)) :
    (⟨S8x512x1, .f32⟩ : BufTy).Contents (Elt F) :=
  select (val_main_call1_v12 (F := F) x1)
    (Host.gather gather_S8x512x32000_S8x512x1x1_S8x512x1_n_2_01_01_2_3_111 a (val_main_call1_v5 (F := F) x1))
    (val_main_call1_v14 (F := F))

/-- The common tail: per batch the sum of the masked values over its length, then the mean over the batch. -/
def tailOf (w : (⟨S8x512, .f32⟩ : BufTy).Contents (Elt F)) (x2 : (⟨S8x1, .i32⟩ : BufTy).Contents (Elt F)) :
    (⟨S_, .f32⟩ : BufTy).Contents (Elt F) :=
  Host.divf
    (Host.reduceAdd
      (Host.divf (Host.reduceAdd w (val_main_cst (F := F)) reducesTo_S8x512_S8_d1 h_S_) (val_main_v15 (F := F) x2))
      (val_main_cst_0 (F := F)) reducesTo_S8_S_d0 h_S_)
    (val_main_cst_1 (F := F))

/-- The kernel's masked per-token values, from its log-sum-exp array `l` and the three arguments. -/
def maskedK (l : (⟨S8x512x1, .f32⟩ : BufTy).Contents (Elt F)) (x0 : (⟨S8x512x32000, .f32⟩ : BufTy).Contents (Elt F))
    (x1 : (⟨S8x512, .i32⟩ : BufTy).Contents (Elt F)) (x2 : (⟨S8x1, .i32⟩ : BufTy).Contents (Elt F)) :
    (⟨S8x512, .f32⟩ : BufTy).Contents (Elt F) :=
  select (val_main_v11 (F := F) x2)
    (subf (shapeCast _ l shapeCasts_S8x512x1_S8x512) (shapeCast _ (takeOf (F := F) x0 x1) shapeCasts_S8x512x1_S8x512))
    (broadcastInDim S8x512 ![] bcast_S_S8x512 (constant S_ .f32 0x00000000#32))

/-- The reference's gathered stage is `takeOf` of its log-softmax stage. -/
theorem val_main_v2_eq (x0 : (⟨S8x512x32000, .f32⟩ : BufTy).Contents (Elt F)) (x1 : (⟨S8x512, .i32⟩ : BufTy).Contents (Elt F)) :
    val_main_v2 (F := F) x0 x1 = takeOf (F := F) (val_main_v0 (F := F) x0) x1 := rfl

/-- The reference's result is the common tail of its masked stage. -/
theorem val_main_v18_tail (x0 : (⟨S8x512x32000, .f32⟩ : BufTy).Contents (Elt F)) (x1 : (⟨S8x512, .i32⟩ : BufTy).Contents (Elt F))
    (x2 : (⟨S8x1, .i32⟩ : BufTy).Contents (Elt F)) :
    val_main_v18 (F := F) x0 x1 x2 = tailOf (F := F) (val_main_v13 (F := F) x0 x1 x2) x2 := rfl

end Cert.ReferenceIdeal.Shared

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«102475_j87522843558384_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.RowAlgebra.lean ====
/-
  One row of logits on the extended reals.

  For a row r of n logits write M for the fold of max over the row from -∞ and L for log (∑ exp (r k - M)).  When every
  entry of the row is a real number and the row is not empty, M and L are real numbers: a finite maximum of reals is
  real, every exp (r k - M) is a positive real, so their sum is a positive real and its logarithm is real.  (That M is
  the row's largest entry is never used.)  On real numbers

      (M + L) - y = -((y - M) - L),

  which is the negative log-likelihood of an entry y written the two ways; and when the entry is replaced by -∞ both
  sides are +∞, because M + L is real.  A select between a value t and zero on a one-bit word c is t times the word read
  as a number: t · 1 = t and t · 0 = 0 on every extended real, the infinities included.
-/
import Idealize.ShloMosaic.PureOps.Ideal

noncomputable section

namespace Cert.NllRow

open Idealize.ShloMosaic

/-- The coercion of a finite sum of reals is the sum of the coercions. -/
theorem coe_sum {ι : Type} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- Max folded from -∞ over a nonempty finite family of reals is a real. -/
theorem fold_max_real {ι : Type} (s : Finset ι) (hs : s.Nonempty) (f : ι → ℝ) :
    ∃ m : ℝ, s.fold max (⊥ : EReal) (fun k => (f k : EReal)) = (m : EReal) := by
  classical
  revert hs
  refine Finset.induction_on s ?_ ?_
  · intro hs; exact absurd hs (by simp)
  · intro a s ha ih _
    rw [Finset.fold_insert ha]
    rcases s.eq_empty_or_nonempty with rfl | hne
    · exact ⟨f a, by rw [Finset.fold_empty, max_eq_left bot_le]⟩
    · obtain ⟨m, hm⟩ := ih hne
      exact ⟨max (f a) m, by rw [hm]; exact (EReal.coe_strictMono.monotone.map_max).symm⟩

variable {n : ℕ}

/-- The row's maximum as the programs compute it: max folded over the row from -∞. -/
def rowMax (r : Fin n → EReal) : EReal := (Finset.univ : Finset (Fin n)).fold max ⊥ r

/-- The logarithm of the row's sum of exponentials shifted by the row's maximum. -/
def rowLog (r : Fin n → EReal) : EReal := Ideal.log (∑ k : Fin n, Ideal.exp (r k - rowMax r))

/-- On a nonempty row of reals both are real. -/
theorem row_real (hn : 0 < n) (r : Fin n → EReal) (hr : ∀ k, ∃ y : ℝ, r k = (y : EReal)) :
    ∃ m l : ℝ, rowMax r = (m : EReal) ∧ rowLog r = (l : EReal) := by
  choose f hf using hr
  obtain rfl : r = fun k => (f k : EReal) := funext hf
  haveI : Nonempty (Fin n) := ⟨⟨0, hn⟩⟩
  obtain ⟨m, hm⟩ := fold_max_real (Finset.univ : Finset (Fin n)) Finset.univ_nonempty f
  have hm' : rowMax (fun k => (f k : EReal)) = (m : EReal) := hm
  refine ⟨m, Real.log (∑ k : Fin n, Real.exp (f k - m)), hm', ?_⟩
  unfold rowLog
  rw [hm']
  have hsum : (∑ k : Fin n, Ideal.exp ((f k : EReal) - (m : EReal)))
      = ((∑ k : Fin n, Real.exp (f k - m) : ℝ) : EReal) := by
    rw [coe_sum]
    exact Finset.sum_congr rfl fun k _ => by rw [← EReal.coe_sub, Ideal.exp_coe]
  rw [hsum, Ideal.log_coe,
    if_neg (not_le.mpr (Finset.sum_pos (fun k _ => Real.exp_pos _) Finset.univ_nonempty))]

/-- The negative log-likelihood of an entry written the two ways, the entry read through a select on a one-bit word
    whose other branch is -∞: on reals the two are equal by arithmetic, and at -∞ both are +∞. -/
theorem token_eq (m l y : ℝ) (c : BitVec 1) (nan : EReal) (hnan : nan = ⊥) :
    ((m : EReal) + (l : EReal)) - Scalar.select c (y : EReal) nan
      = -(Scalar.select c (((y : EReal) - (m : EReal)) - (l : EReal)) nan) := by
  subst hnan
  rcases BitVec.eq_zero_or_eq_one c with h | h <;> subst h
  · show ((m : EReal) + (l : EReal)) - (if (0#1 : BitVec 1) = 1 then (y : EReal) else ⊥)
        = -(if (0#1 : BitVec 1) = 1 then (((y : EReal) - (m : EReal)) - (l : EReal)) else ⊥)
    rw [if_neg (by decide), if_neg (by decide), ← EReal.coe_add, EReal.coe_sub_bot, EReal.neg_bot]
  · show ((m : EReal) + (l : EReal)) - (if (1#1 : BitVec 1) = 1 then (y : EReal) else ⊥)
        = -(if (1#1 : BitVec 1) = 1 then (((y : EReal) - (m : EReal)) - (l : EReal)) else ⊥)
    rw [if_pos (by decide), if_pos (by decide), ← EReal.coe_add, ← EReal.coe_sub, ← EReal.coe_sub, ← EReal.coe_sub, ← EReal.coe_neg]
    exact congrArg _ (by ring)

/-- A select between t and zero on a one-bit word is t times the word read as a number. -/
theorem mask_eq (c : BitVec 1) (t z : EReal) (hz : z = 0) :
    Scalar.select c t z = t * ((c.toNat : ℝ) : EReal) := by
  subst hz
  rcases BitVec.eq_zero_or_eq_one c with h | h <;> subst h
  · show (if (0#1 : BitVec 1) = 1 then t else 0) = t * ((((0#1 : BitVec 1).toNat : ℕ) : ℝ) : EReal)
    rw [if_neg (by decide)]
    simp
  · show (if (1#1 : BitVec 1) = 1 then t else 0) = t * ((((1#1 : BitVec 1).toNat : ℕ) : ℝ) : EReal)
    rw [if_pos (by decide)]
    simp

end Cert.NllRow

end
-- ==== Proof.Consts.lean ====
/-
  The float words the two programs write, read on the extended reals: the pattern of -∞ is the bottom element, and
  the quiet-NaN pattern a gather's fill value carries reads as the bottom element too (there is no NaN on the
  extended reals: a NaN pattern denotes -∞ there).  The zero word is the library's `Ideal.ofBits_zero_f32`.
-/
import Idealize.ShloMosaic.PureOps.Ideal

namespace Cert.Consts

open Idealize.ShloMosaic

/-- The word 0xFF800000 is -∞. -/
theorem ofBits_neg_inf : Ideal.ofBits .f32 0xFF800000#32 = ⊥ := by
  simp [Ideal.ofBits, Ideal.ieee]

/-- The word 0x7FC00000, a NaN pattern, reads as -∞. -/
theorem ofBits_nan : Ideal.ofBits .f32 0x7FC00000#32 = ⊥ := by
  simp [Ideal.ofBits, Ideal.ieee]

end Cert.Consts
-- ==== Proof.KernelRow.lean ====
/-
  The kernel body at one row.

  The body loads its [1, 64, 32000] block x, takes along the last axis the lane maximum M(q) of every row q (from -∞)
  and the lane sum of exp (x(q, k) - M(q)), and stores M(q) + log of that sum as the [1, 64, 1] block.  Read at
  (0, q, 0) the stored value is therefore the row's maximum plus the row's log-sum, both taken of the row
  k ↦ x(0, q, k): the two casts drop and restore the block's leading unit axis, the maximum is kept as a column and
  repeated along the row before the subtraction, and the column of sums is read at its row.
-/
import proofs.«102475_j87522843558384_2_alg».proof.Proof.Gen.KernelIdeal.Skeleton
import proofs.«102475_j87522843558384_2_alg».proof.Proof.LibRowReduce
import proofs.«102475_j87522843558384_2_alg».proof.Proof.RowAlgebra
import proofs.«102475_j87522843558384_2_alg».proof.Proof.Consts
import Idealize.ShloMosaic.Lib.ValueLayout

noncomputable section

namespace Cert.KernelIdeal.RowValue

open Cert.KernelIdeal Cert.KernelIdeal.Gen Idealize.ShloMosaic Idealize.ShloMosaic.ValueIdx Cert.NllRow

/-- The vector unit's exp and log at an index. -/
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- The body's stored value, spelt as one term of the loaded block. -/
theorem pay_eq (v0 : Vec Ideal S1x64x32000 .f32) :
    k0_pay1 (F := Ideal) v0
      = shapeCast S1x64x1
          (addf
            (shapeCast S64x1
              (multiReduction (F := Ideal) .maximumf [1] S64 (shapeCast S64x32000 v0 Facts₀.shapeCasts_S1x64x32000_S64x32000)
                0xFF800000#32 Facts₀.reduces_S64x32000_S64 (.inl rfl) rfl) Facts₀.shapeCasts_S64_S64x1)
            (log (shapeCast S64x1
              (multiReduction (F := Ideal) .add [1] S64
                (exp (subf (shapeCast S64x32000 v0 Facts₀.shapeCasts_S1x64x32000_S64x32000)
                  (broadcastTo S64x32000
                    (shapeCast S64x1
                      (multiReduction (F := Ideal) .maximumf [1] S64 (shapeCast S64x32000 v0 Facts₀.shapeCasts_S1x64x32000_S64x32000)
                        0xFF800000#32 Facts₀.reduces_S64x32000_S64 (.inl rfl) rfl) Facts₀.shapeCasts_S64_S64x1)
                    Facts₀.broadcasts_S64x1_S64x32000)))
                0x00000000#32 Facts₀.reduces_S64x32000_S64 (.inl rfl) rfl) Facts₀.shapeCasts_S64_S64x1)))
          Facts₀.shapeCasts_S64x1_S1x64x1 := rfl

/-- The stored block at (u, q, w) is the maximum of row q of the loaded block plus the logarithm of that row's sum of
    shifted exponentials. -/
theorem pay_apply (v0 : Vec Ideal S1x64x32000 .f32) (u : Fin 1) (q : Fin 64) (w : Fin 1) :
    k0_pay1 (F := Ideal) v0 (ix3 u q w)
      = rowMax (fun k : Fin 32000 => v0 (ix3 (0 : Fin 1) q k)) + rowLog (fun k : Fin 32000 => v0 (ix3 (0 : Fin 1) q k)) := by
  -- the block with its unit axis dropped, read at (q, k)
  have hrow : ∀ k : Fin 32000,
      shapeCast S64x32000 v0 Facts₀.shapeCasts_S1x64x32000_S64x32000 (ix2 q k) = v0 (ix3 (0 : Fin 1) q k) :=
    fun k => shapeCast_1ab_ab_apply v0 _ q k
  -- the lane maximum of row q
  have hmax : multiReduction (F := Ideal) .maximumf [1] S64 (shapeCast S64x32000 v0 Facts₀.shapeCasts_S1x64x32000_S64x32000)
        0xFF800000#32 Facts₀.reduces_S64x32000_S64 (.inl rfl) rfl (ix1 q)
      = rowMax (fun k : Fin 32000 => v0 (ix3 (0 : Fin 1) q k)) := by
    refine (Cert.LibRowReduce.rowMax_apply _ _ _ _ _ q).trans ?_
    unfold rowMax
    rw [show (FloatOps.ofBits (F := Ideal) .f32 0xFF800000#32 : EReal) = ⊥ from Cert.Consts.ofBits_neg_inf]
    exact congrArg (fun f => (Finset.univ : Finset (Fin 32000)).fold max (⊥ : EReal) f) (funext hrow)
  rw [pay_eq]
  refine (shapeCast_ab_1ab_apply _ _ u q w).trans ?_
  refine (addf_apply _ _ _).trans ?_
  refine congrArg₂ (fun a b : EReal => a + b) ?_ ?_
  · exact (Cert.LibColumn.shapeCast_a_a1_apply _ _ q w).trans hmax
  · refine (log_at _ _).trans ?_
    unfold rowLog
    refine congrArg Ideal.log ?_
    refine (Cert.LibColumn.shapeCast_a_a1_apply _ _ q w).trans ?_
    refine (Cert.LibRowReduce.rowSum_apply _ _ _ _ _ q).trans ?_
    refine Finset.sum_congr rfl fun k _ => ?_
    refine (exp_at _ _).trans (congrArg Ideal.exp ?_)
    refine (subf_apply _ _ _).trans ?_
    exact congrArg₂ (fun a b : EReal => a - b) (hrow k)
      ((Cert.LibRowReduce.column_repeat_apply _ _ _ q k).trans hmax)

end Cert.KernelIdeal.RowValue

end
-- ==== Proof.Rows.lean ====
/-
  Rows of a three-axis array, and the array of their log-sum-exps.

  Row (b, s) of an [A, B, N] array x is k ↦ x(b, s, k).  The [A, B, 1] array `lseOf x` holds at (b, s, 0) the row's
  maximum plus the logarithm of the row's sum of exponentials shifted by that maximum.
-/
import proofs.«102475_j87522843558384_2_alg».proof.Proof.RowAlgebra
import Idealize.ShloMosaic.Lib.ValueIdx

noncomputable section

namespace Cert.NllRow

open Idealize.ShloMosaic Idealize.ShloMosaic.ValueIdx

variable {A B N : ℕ}

/-- Row (b, s). -/
def rowOf (x : (⟨3, ![A, B, N]⟩ : Shape).Idx → EReal) (b : Fin A) (s : Fin B) : Fin N → EReal := fun k => x (ix3 b s k)

/-- The log-sum-exp of row (b, s). -/
def lseAt (x : (⟨3, ![A, B, N]⟩ : Shape).Idx → EReal) (b : Fin A) (s : Fin B) : EReal :=
  rowMax (rowOf x b s) + rowLog (rowOf x b s)

/-- The log-sum-exp of every row, as an [A, B, 1] array. -/
def lseOf (x : (⟨3, ![A, B, N]⟩ : Shape).Idx → EReal) : (⟨3, ![A, B, 1]⟩ : Shape).Idx → EReal :=
  fun i => lseAt x (i 0) (i 1)

theorem lseOf_ix3 (x : (⟨3, ![A, B, N]⟩ : Shape).Idx → EReal) (b : Fin A) (s : Fin B) (u : Fin 1) :
    lseOf x (ix3 b s u) = lseAt x b s := rfl

end Cert.NllRow

end
-- ==== Proof.KernelArray.lean ====
/-
  The kernel's output array after the run.

  Grid point t = (b, j) loads rows 64·j … 64·j + 63 of batch b of the logits and writes back, as rows 64·j … 64·j + 63
  of batch b of the [8, 512, 1] output, each row's maximum plus the logarithm of its sum of shifted exponentials.  The
  input's and the output's index maps are the same map t ↦ (b, j, 0), so what point t writes back is block t of ONE
  function of the logits, `lse`: entry (b, s, 0) is computed from row (b, s) of the logits alone.  The 64 blocks tile the
  output (row s of batch b lies in the block of the point (b, s / 64)), so after the run the array IS that function.
-/
import proofs.«102475_j87522843558384_2_alg».proof.Proof.Gen.KernelIdeal.Frame
import proofs.«102475_j87522843558384_2_alg».proof.Proof.KernelRow
import proofs.«102475_j87522843558384_2_alg».proof.Proof.Rows
import Idealize.ShloMosaic.Lib.Pipeline.Value

noncomputable section

namespace Cert.KernelIdeal.ArrayValue

open Cert.KernelIdeal Cert.KernelIdeal.Gen Idealize.ShloMosaic Idealize.ShloMosaic.TcCoe Idealize.ShloMosaic.ValueIdx
open Idealize.SL.Sem Cert.NllRow
open Idealize.ShloMosaic.Pipeline (Dat Cfg Window)

variable (m : (ℓ : Loc nD τ sig) → Buf (Elt Ideal) ℓ) (ρ : Dev nD → PrngReg)

/-- The log-sum-exp of every row of the logits, laid out as the kernel's [8, 512, 1] output. -/
abbrev lse (x : S8x512x32000.Idx → EReal) : S8x512x1.Idx → EReal := lseOf x

theorem hz : (![0, 0, 0] : Fin 3 → Nat) = fun _ => 0 := funext fun a => by fin_cases a <;> rfl

/-- The two index maps, decided over the grid: they agree on the two leading axes and are zero on the last, and the
    block indices stay in range. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 7 ∧ win0_1.index t (1 : Fin 3) ≤ 7 :=
  (by decide +kernel : ∀ t : Fin grid0.N, _)

/-- Every block of the output is some point's. -/
theorem idx_onto : ∀ (q0 : Fin 8) (q1 : Fin 8), ∃ t : Fin cfg0.N, win0_1.index t = ![q0.val, q1.val, 0] :=
  (by decide +kernel : ∀ (q0 : Fin 8) (q1 : Fin 8), ∃ t : Fin grid0.N, win0_1.index t = ![q0.val, q1.val, 0])

/-- WHAT POINT t WRITES BACK is block t of `lse` of the logits as the region finds them. -/
theorem flushed_eq (c : Dev nD) (t : Fin cfg0.N) :
    (dats m 0 c).flushed 1 t = ((cfg0.win 1).blk t).view.read (Elt Ideal) (lse (V m c main_arg0)) := by
  show (cfg0.win 1).cut (grid0.coords t) ((dats m 0 c).after 1 t) = _
  rw [after0_1]
  unfold out0_1
  rw [View.canon_unit_zero hz]
  simp only [View.ld_unit_zero (S := S1x64x32000) hz]
  obtain ⟨e0, e1, e2, e3, e4, e5⟩ := idx_facts t
  funext j
  obtain ⟨u, q, w, rfl⟩ : ∃ (u : Fin 1) (q : Fin 64) (w : Fin 1), j = ix3 u q w := ⟨j 0, j 1, j 2, eq_ix3 j⟩
  show k0_pay1 (F := Ideal) (iblk m c 0 t) (ix3 u q w) = lse (V m c main_arg0) (((cfg0.win 1).blk t).view.emb (ix3 u q w))
  refine (Cert.KernelIdeal.RowValue.pay_apply (iblk m c 0 t) u q w).trans ?_
  -- the input block's row q is the logits' row under the output's rectangle
  have hrow : (fun k : Fin 32000 => iblk m c 0 t (ix3 (0 : Fin 1) q k))
      = rowOf (V m c main_arg0) (((cfg0.win 1).blk t).view.emb (ix3 u q w) 0) (((cfg0.win 1).blk t).view.emb (ix3 u q w) 1) := by
    funext k
    show V m c main_arg0 (((cfg0.win 0).blk t).view.emb (ix3 (0 : Fin 1) q k))
      = V m c main_arg0 (ix3 (((cfg0.win 1).blk t).view.emb (ix3 u q w) 0) (((cfg0.win 1).blk t).view.emb (ix3 u q w) 1) k)
    refine congrArg (V m c main_arg0) (funext fun a => Fin.ext ?_)
    have hu : u.val = 0 := by omega
    match a with
    | ⟨0, _⟩ =>
      show win0_0.index t (0 : Fin 3) * 1 + 1 * 0 = win0_1.index t (0 : Fin 3) * 1 + 1 * u.val
      omega
    | ⟨1, _⟩ =>
      show win0_0.index t (1 : Fin 3) * 64 + 1 * q.val = win0_1.index t (1 : Fin 3) * 64 + 1 * q.val
      omega
    | ⟨2, _⟩ =>
      show win0_0.index t (2 : Fin 3) * 32000 + 1 * k.val = k.val
      omega
  show _ = rowMax (rowOf (V m c main_arg0) _ _) + rowLog (rowOf (V m c main_arg0) _ _)
  rw [hrow]

/-- An index of the output is in point t's block iff each coordinate is in the block's range on its axis. -/
theorem mem_blk (t : Fin cfg0.N) (i : S8x512x1.Idx) :
    i ∈ ((cfg0.win 1).blk t).view.set ↔ ∀ a : Fin 3, win0_1.index t a * S1x64x1.size a ≤ (i a).val
      ∧ (i a).val < win0_1.index t a * S1x64x1.size a + S1x64x1.size a := by
  show i ∈ ((View.whole main_v0).slice (win0_1.rect t)).set ↔ _
  rw [View.set_slice_whole, Rect.mem_set_unit]
  exact Iff.rfl

/-- The blocks cover the output: row s of batch b is in the block of the point (b, s / 64). -/
theorem cover (i : S8x512x1.Idx) :
    ∃ t : Fin cfg0.N, (cfg0.win 1).flush t = true ∧ i ∈ ((cfg0.win 1).blk t).view.set := by
  have hi0 : (i 0).val < 8 := (i 0).isLt
  have hi1 : (i 1).val < 512 := (i 1).isLt
  have hi2 : (i 2).val < 1 := (i 2).isLt
  obtain ⟨t, ht⟩ := idx_onto ⟨(i 0).val, hi0⟩ ⟨(i 1).val / 64, by omega⟩
  have q0 : win0_1.index t (0 : Fin 3) = (i 0).val := congrFun ht 0
  have q1 : win0_1.index t (1 : Fin 3) = (i 1).val / 64 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 1 ≤ (i 2).val ∧ (i 2).val < win0_1.index t (2 : Fin 3) * 1 + 1
    omega

/-- THE OUTPUT ARRAY after the run is `lse` of the logits. -/
theorem final (c : Dev nD) : (dats m 0 c).arrAt 1 cfg0.N = lse (m ((c : Thread nD τ).loc main_arg0)) :=
  (dats m 0 c).arrAt_eq_of_cover 1 (lse (V m c main_arg0)) (fun t _ => flushed_eq m c t) cover

end Cert.KernelIdeal.ArrayValue

end
-- ==== Proof.KernelTail.lean ====
/-
  The kernel's result: the host operations after the region, read off the frame run.

  After the region the program drops the unit axis of the kernel's output, gathers one logit per token (the shared
  gather with its bounds test), subtracts it from the token's log-sum-exp, selects against zero by the validity mask and
  runs the common tail.  The frame run states the result buffer as the fold of these 45 operations over the buffers as
  the region leaves them: the kernel's output array, which is the log-sum-exp array (the blocks-to-array leg), and the
  three arguments unchanged.  The two called functions' operations are spelt over typed references, which move a value
  along a reference's type equation (the identity at a literal reference); the fold is computed with those moves removed
  where they appear.
-/
import proofs.«102475_j87522843558384_2_alg».proof.Proof.Gen.KernelIdeal.Frame
import proofs.«102475_j87522843558384_2_alg».proof.Proof.KernelArray
import proofs.«102475_j87522843558384_2_alg».proof.Proof.Shared
import Idealize.ShloMosaic.Lib.StableHlo.Run

noncomputable section

namespace Cert.KernelIdeal.TailValue

open Cert.KernelIdeal Cert.KernelIdeal.Gen Idealize.ShloMosaic Idealize.ShloMosaic.TcCoe Idealize.SL.Sem
open Idealize.ShloMosaic.StableHlo
open Idealize.ShloMosaic.Pipeline (Dat Cfg Window)

section Lists

variable {F : FTy → Type} [FloatOps F]

set_option maxRecDepth 16384 in
set_option maxHeartbeats 2000000 in
/-- The result buffer after the 45 operations, from any contents `W` of the buffers before them. -/
theorem tail_result (W : Valuation τ sig (Elt F)) :
    after (List.flatten [hostOps1, hostOps1_1, hostOps1_2, hostOps1_3, hostOps1_4]) W (Proc.devRef .tc main_v18)
      = Cert.ReferenceIdeal.Shared.tailOf (F := F)
          (Cert.ReferenceIdeal.Shared.maskedK (F := F) (W (Proc.devRef .tc main_v0)) (W (Proc.devRef .tc main_arg0))
            (W (Proc.devRef .tc main_arg1)) (W (Proc.devRef .tc main_arg2)))
          (W (Proc.devRef .tc main_arg2)) := by
  simp only [hostOps1, hostOps1_1, hostOps1_2, hostOps1_3, hostOps1_4, List.flatten_cons, List.flatten_nil, List.append_nil,
    List.cons_append, List.nil_append]
  simp (disch := decide) only [after_cons, after_nil, nullary_result', unary_result', binary_result', ternary_result',
    reshape_result', nullary_result_ne', unary_result_ne', binary_result_ne', ternary_result_ne', reshape_result_ne',
    TRef.ofBuf, TRef.toBuf, cast_eq]
  rfl

end Lists

variable (m : (ℓ : Loc nD τ sig) → Buf (Elt Ideal) ℓ) (ρ : Dev nD → PrngReg)

/-- THE RESULT the frame run states for the result buffer. -/
theorem tail_value (c : Dev nD) :
    Pipeline.afterTail₀ cfgs (dats m) 0 (V0 m) [hostOps1, hostOps1_1, hostOps1_2, hostOps1_3, hostOps1_4] c main_v18
      = Cert.ReferenceIdeal.Shared.tailOf (F := Ideal)
          (Cert.ReferenceIdeal.Shared.maskedK (F := Ideal)
            (Cert.KernelIdeal.ArrayValue.lse (m ((c : Thread nD τ).loc main_arg0)))
            (m ((c : Thread nD τ).loc main_arg0)) (m ((c : Thread nD τ).loc main_arg1)) (m ((c : Thread nD τ).loc main_arg2)))
          (m ((c : Thread nD τ).loc main_arg2)) := by
  unfold Pipeline.afterTail₀
  refine (tail_result _).trans ?_
  have e0 : Pipeline.withArrays (cfgs 0).spec c (V0 m c) (fun w => (dats m 0 c).arrAt w (cfgs 0).N) (Proc.devRef .tc main_v0)
      = Cert.KernelIdeal.ArrayValue.lse (m ((c : Thread nD τ).loc main_arg0)) :=
    (Pipeline.withArrays_arr spec0 launch0.win.arr_inj c _ _ 1).trans (Cert.KernelIdeal.ArrayValue.final m c)
  have e1 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  have e2 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e3 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e0, e1, e2, e3]

/-- THE KERNEL'S RUN, read: the result buffer at the common tail of the kernel's masked values, the arguments unchanged. -/
theorem run : θ_run defs (onTc (τ := τ) (main (F := Ideal))) ⟨m, fun _ => 0, ρ⟩ fun r => ∀ c : Dev nD,
      r.2.mem ((c.tc : Thread nD τ).loc main_v18)
          = Cert.ReferenceIdeal.Shared.tailOf (F := Ideal)
              (Cert.ReferenceIdeal.Shared.maskedK (F := Ideal)
                (Cert.KernelIdeal.ArrayValue.lse (m ((c : Thread nD τ).loc main_arg0)))
                (m ((c : Thread nD τ).loc main_arg0)) (m ((c : Thread nD τ).loc main_arg1)) (m ((c : Thread nD τ).loc main_arg2)))
              (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v18 (Pipeline.mem_restRefs_of main_v18 (by decide) (by decide))).trans (tail_value m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.TailValue

end
-- ==== Proof.RefStages.lean ====
/-
  The reference's log-softmax, read at an index through its stages.

  At (b, s) the reference takes the maximum M of row (b, s) of the logits (a reduction by max from -∞, then once more
  max with -∞), subtracts it along the row, exponentiates, sums the row (from 0), takes the logarithm L, and subtracts
  that along the row: entry (b, s, k) of the log-softmax is (x(b, s, k) - M) - L, with M and L the row's maximum and the
  row's log-sum as the kernel computes them.
-/
import proofs.«102475_j87522843558384_2_alg».proof.Proof.RefRead
import proofs.«102475_j87522843558384_2_alg».proof.Proof.Rows
import proofs.«102475_j87522843558384_2_alg».proof.Proof.Consts
import Idealize.ShloMosaic.PureOps.Ideal.Laws
import Idealize.ShloMosaic.PureOps.Reduce
import Idealize.ShloMosaic.Lib.ValueIdx

noncomputable section

namespace Cert.ReferenceIdeal.Stages

open Cert.ReferenceIdeal Cert.ReferenceIdeal.Gen Cert.ReferenceIdeal.ReadP
open Idealize.ShloMosaic Idealize.ShloMosaic.ValueIdx Cert.NllRow

/-- The float maximum at the ideal values is `max`: a fold by one is the fold by the other. -/
theorem fold_maximumf {n : ℕ} (c : EReal) (f : Fin n → EReal) :
    (Finset.univ : Finset (Fin n)).fold (FloatOps.maximumf (F := Ideal) (φ := .f32)) c f
      = (Finset.univ : Finset (Fin n)).fold max c f := rfl

/-- A result index (b, s) of the reduction along the last axis, with the dropped coordinate k put back, is (b, s, k). -/
theorem lift_last (h : S8x512x32000.Reduces [(2 : Fin 3)] S8x512) (b : Fin 8) (s : Fin 512) (k : Fin 32000) :
    h.lift (ix2 b s) k = ix3 b s k := by
  funext a
  apply Fin.ext
  match a with
  | ⟨0, _⟩ => rfl
  | ⟨1, _⟩ => rfl
  | ⟨2, _⟩ => rfl

set_option backward.isDefEq.respectTransparency.types false in
/-- The host's reduction by max from -∞ along the last axis, at (b, s): the row's maximum. -/
theorem reduce_max_stage (x0 : (⟨3, ![8, 512, 32000]⟩ : Shape).Idx → EReal) (b : Fin 8) (s : Fin 512) :
    val_main_call0_v0 (F := Ideal) x0 (ix2 b s) = rowMax (rowOf x0 b s) := by
  have hred : S8x512x32000.Reduces [(2 : Fin 3)] S8x512 := by decide
  have hfun : ((x0 ∘ hred.lift (ix2 b s)) : Fin 32000 → EReal) = rowOf x0 b s :=
    funext fun k => congrArg x0 (lift_last hred b s k)
  unfold val_main_call0_v0
  refine (Host.reduce_eq_fold_single (α := EReal) (FloatOps.maximumf (F := Ideal) (φ := .f32)) x0
    (val_main_call0_cst (F := Ideal)) Facts₀.reducesTo_S8x512x32000_S8x512_d2 hred Facts₀.h_S_ (ix2 b s)).trans ?_
  refine (fold_maximumf _ _).trans ?_
  rw [show (val_main_call0_cst (F := Ideal)) (Shape.Idx.first Facts₀.h_S_) = (⊥ : EReal) from Cert.Consts.ofBits_neg_inf]
  unfold rowMax
  exact congrArg (fun f => (Finset.univ : Finset (Fin 32000)).fold max (⊥ : EReal) f) hfun

/-- The row maximum, as the reference computes it (once more max with -∞). -/
theorem max_stage (x0 : (⟨3, ![8, 512, 32000]⟩ : Shape).Idx → EReal) (b : Fin 8) (s : Fin 512) :
    val_main_call0_v2 (F := Ideal) x0 (ix2 b s) = rowMax (rowOf x0 b s) := by
  rw [val_main_call0_v2_apply, reduce_max_stage, val_main_call0_v1_apply, val_main_call0_cst_0_apply, Ideal.maximumf_def,
    Ideal.ofBits_def, Cert.Consts.ofBits_neg_inf]
  exact max_eq_right bot_le

/-- The row with its maximum subtracted. -/
theorem shifted_stage (x0 : (⟨3, ![8, 512, 32000]⟩ : Shape).Idx → EReal) (b : Fin 8) (s : Fin 512) (k : Fin 32000) :
    val_main_call0_v5 (F := Ideal) x0 (ix3 b s k) = x0 (ix3 b s k) - rowMax (rowOf x0 b s) := by
  have hidx : idx_main_call0_v3 (idx_main_call0_v4 (ix3 b s k)) = ix2 b s := by
    funext a
    apply Fin.ext
    match a with
    | ⟨0, _⟩ => rfl
    | ⟨1, _⟩ => rfl
  rw [val_main_call0_v5_apply, val_main_call0_v4_apply, val_main_call0_v3_apply, hidx, max_stage, Ideal.subf_def]

/-- The row's sum of shifted exponentials. -/
theorem sum_stage (x0 : (⟨3, ![8, 512, 32000]⟩ : Shape).Idx → EReal) (b : Fin 8) (s : Fin 512) :
    val_main_call0_v7 (F := Ideal) x0 (ix2 b s)
      = ∑ k : Fin 32000, Ideal.exp (rowOf x0 b s k - rowMax (rowOf x0 b s)) := by
  rw [val_main_call0_v7_apply, val_main_call0_cst_1_apply, Ideal.ofBits_def, Ideal.ofBits_zero_f32, zero_add]
  refine Finset.sum_congr rfl fun k _ => ?_
  have hidx : idx_main_call0_v7 (ix2 b s) k = ix3 b s k := by
    funext a
    apply Fin.ext
    match a with
    | ⟨0, _⟩ => rfl
    | ⟨1, _⟩ => rfl
    | ⟨2, _⟩ => rfl
  rw [hidx, val_main_call0_v6_apply, shifted_stage, Ideal.hostUnary_exp_def]
  rfl

/-- The logarithm of the row's sum, repeated along the row. -/
theorem log_stage (x0 : (⟨3, ![8, 512, 32000]⟩ : Shape).Idx → EReal) (b : Fin 8) (s : Fin 512) (k : Fin 32000) :
    val_main_call0_v10 (F := Ideal) x0 (ix3 b s k) = rowLog (rowOf x0 b s) := by
  have hidx : idx_main_call0_v8 (idx_main_call0_v10 (ix3 b s k)) = ix2 b s := by
    funext a
    apply Fin.ext
    match a with
    | ⟨0, _⟩ => rfl
    | ⟨1, _⟩ => rfl
  rw [val_main_call0_v10_apply, val_main_call0_v9_apply, val_main_call0_v8_apply, hidx, sum_stage, Ideal.hostUnary_log_def]
  unfold rowLog
  rfl

/-- THE LOG-SOFTMAX at (b, s, k). -/
theorem logp_stage (x0 : (⟨3, ![8, 512, 32000]⟩ : Shape).Idx → EReal) (b : Fin 8) (s : Fin 512) (k : Fin 32000) :
    val_main_v0 (F := Ideal) x0 (ix3 b s k)
      = (x0 (ix3 b s k) - rowMax (rowOf x0 b s)) - rowLog (rowOf x0 b s) := by
  rw [val_main_v0_apply, shifted_stage, log_stage, Ideal.subf_def]

end Cert.ReferenceIdeal.Stages

end
-- ==== Proof.LibGatherRow.lean ====
/-
  A gather of one entry per row along the last axis of a three-axis array, read at an index.

  The operand is [A, B, N], the start indices are [A, B, 1, 1] and the result is [A, B, 1]; the two leading axes are
  batching axes on both sides, the last operand axis is collapsed and is the one the start index names.  Result
  element (b, s, 0) is then the operand's element (b, s, v), where the position v on the last axis depends on the
  start indices alone (it is the start index at (b, s, 0, 0) read signed and clamped into [0, N - 1]): the batching
  coordinates pass through unchanged, whatever the operand holds.
-/
import Idealize.ShloMosaic.PureOps
import Idealize.ShloMosaic.Lib.ValueIdx

namespace Cert.LibGatherRow

open Idealize.ShloMosaic Idealize.ShloMosaic.ValueIdx

variable {α : Type}

/-- Those dimension numbers; their conditions `wf` are decided on a program's literal shapes. -/
abbrev rowDims (A B N : Nat)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The operand index of result index (b, s, u) keeps the two batching coordinates. -/
theorem operandIdx_batch {A B N w : Nat}
    (wf : GatherDims.WF ⟨3, ![A, B, N]⟩ ⟨4, ![A, B, 1, 1]⟩ ⟨3, ![A, B, 1]⟩ [] [2] [0, 1] [2] [0, 1] 3 ![1, 1, 1])
    (idx : IVec ⟨4, ![A, B, 1, 1]⟩ w) (b : Fin A) (s : Fin B) (u : Fin 1) :
    ((rowDims A B N wf).operandIdx (ix3 b s u) idx 0).val = b.val
      ∧ ((rowDims A B N wf).operandIdx (ix3 b s u) idx 1).val = s.val := by
  constructor
  · show (rowDims A B N wf).start (ix3 b s u) idx 0 + (rowDims A B N wf).batchCoord (ix3 b s u) 0
        + (rowDims A B N wf).offCoord (ix3 b s u) 0 = b.val
    rw [GatherDims.start_batching _ _ _ _ (show (0 : Fin 3) ∈ ([0, 1] : List (Fin 3)) from by decide),
      GatherDims.offCoord_eq_zero _ _ _ (fun h => (((rowDims A B N wf).mem_sKept _).mp h).2 (show (0 : Fin 3) ∈ ([0, 1] : List (Fin 3)) from by decide))]
    show 0 + (rowDims A B N wf).batchCoord (ix3 b s u) 0 + 0 = b.val
    rw [Nat.zero_add, Nat.add_zero]
    rfl
  · show (rowDims A B N wf).start (ix3 b s u) idx 1 + (rowDims A B N wf).batchCoord (ix3 b s u) 1
        + (rowDims A B N wf).offCoord (ix3 b s u) 1 = s.val
    rw [GatherDims.start_batching _ _ _ _ (show (1 : Fin 3) ∈ ([0, 1] : List (Fin 3)) from by decide),
      GatherDims.offCoord_eq_zero _ _ _ (fun h => (((rowDims A B N wf).mem_sKept _).mp h).2 (show (1 : Fin 3) ∈ ([0, 1] : List (Fin 3)) from by decide))]
    show 0 + (rowDims A B N wf).batchCoord (ix3 b s u) 1 + 0 = s.val
    rw [Nat.zero_add, Nat.add_zero]
    rfl

/-- THE GATHER READ AT (b, s, u): the operand at (b, s, v), for a position v on the last axis that the start indices
    fix and the operand's contents do not enter. -/
theorem gather_row_apply {A B N w : Nat}
    (wf : GatherDims.WF ⟨3, ![A, B, N]⟩ ⟨4, ![A, B, 1, 1]⟩ ⟨3, ![A, B, 1]⟩ [] [2] [0, 1] [2] [0, 1] 3 ![1, 1, 1])
    (idx : IVec ⟨4, ![A, B, 1, 1]⟩ w) (b : Fin A) (s : Fin B) (u : Fin 1) :
    ∃ v : Fin N, ∀ x : (⟨3, ![A, B, N]⟩ : Shape).Idx → α,
      Host.gather (rowDims A B N wf) x idx (ix3 b s u) = x (ix3 b s v) := by
  obtain ⟨h0, h1⟩ := operandIdx_batch (N := N) wf idx b s u
  refine ⟨(rowDims A B N wf).operandIdx (ix3 b s u) idx 2, fun x => ?_⟩
  unfold Host.gather
  refine congrArg x (funext fun a => Fin.ext ?_)
  match a with
  | ⟨0, _⟩ => exact h0
  | ⟨1, _⟩ => exact h1
  | ⟨2, _⟩ => rfl

end Cert.LibGatherRow
-- ==== Proof.LibTrailingUnit.lean ====
/-
  A trailing unit axis dropped by a shape cast, read at an index: an [a, b, 1] array cast to [a, b] reads, at (p, q), the
  operand at (p, q, 0).  For any element type and extents.
-/
import Idealize.ShloMosaic.Lib.Pipeline.Value
import Idealize.ShloMosaic.Lib.ValueIdx

namespace Cert.LibTrailingUnit

open Idealize.ShloMosaic Idealize.ShloMosaic.ValueIdx

variable {α : Type}

/-- An `[a, b, 1]` array cast to `[a, b]` reads, at `(p, q)`, the operand at `(p, q, 0)`. -/
theorem shapeCast_ab1_ab_apply {a b : ℕ} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q (0 : Fin 1)) :=
  shapeCast_apply v h _ _ (by
    rw [Shape.rowMajor_val_three, Shape.rowMajor_val_two]
    show (p.val * b + q.val) * 1 + 0 = p.val * b + q.val
    omega)

end Cert.LibTrailingUnit
-- ==== Proof.Bridge.lean ====
/-
  The two programs' masked per-token values are one array.

  At token (b, s) let M and L be the maximum and the log-sum of row (b, s) of the logits, both real numbers because
  every logit is (the precondition).  The shared gather picks, from whatever array it is given, either the entry at
  (b, s, v) for a position v that the target alone fixes, or the fill value, which reads as -∞; which of the two is a
  one-bit word c that the target alone fixes.  So the kernel's value is (M + L) - (c ? x(b, s, v) : -∞) under a select
  against zero by the validity bit, and the reference's is -(c ? (x(b, s, v) - M) - L : -∞) times the validity bit read
  as a number.  The two negative log-likelihoods are equal (arithmetic on reals; +∞ on both sides at -∞), and a select
  against zero is the product with the bit.
-/
import proofs.«102475_j87522843558384_2_alg».proof.Proof.Shared
import proofs.«102475_j87522843558384_2_alg».proof.Proof.RefStages
import proofs.«102475_j87522843558384_2_alg».proof.Proof.LibGatherRow
import proofs.«102475_j87522843558384_2_alg».proof.Proof.LibTrailingUnit
import proofs.«102475_j87522843558384_2_alg».proof.Proof.LibColumn
import proofs.«102475_j87522843558384_2_alg».proof.Proof.Rows
import proofs.«102475_j87522843558384_2_alg».proof.Proof.Consts
import Idealize.ShloMosaic.Lib.ValueIdx

noncomputable section

namespace Cert.Bridge

open Cert.ReferenceIdeal Cert.ReferenceIdeal.Gen Cert.ReferenceIdeal.ReadP Cert.ReferenceIdeal.Shared Cert.ReferenceIdeal.Stages
open Idealize.ShloMosaic Idealize.ShloMosaic.ValueIdx Cert.NllRow Cert.LibTrailingUnit

/-- The shared gather at token (b, s): the entry of the given array at a position the target fixes, or -∞, by a bit the
    target fixes. -/
theorem takeOf_apply (x1 : (⟨S8x512, .i32⟩ : BufTy).Contents (Elt Ideal)) (b : Fin 8) (s : Fin 512) :
    ∃ (cb : BitVec 1) (v : Fin 32000), ∀ a : (⟨3, ![8, 512, 32000]⟩ : Shape).Idx → EReal,
      takeOf (F := Ideal) a x1 (ix3 b s (0 : Fin 1)) = Scalar.select cb (a (ix3 b s v)) (⊥ : EReal) := by
  obtain ⟨v, hv⟩ := Cert.LibGatherRow.gather_row_apply (α := EReal) (N := 32000)
    Facts₀.gather_S8x512x32000_S8x512x1x1_S8x512x1_n_2_01_01_2_3_111_wf (val_main_call1_v5 (F := Ideal) x1) b s (0 : Fin 1)
  refine ⟨val_main_call1_v12 (F := Ideal) x1 (ix3 b s (0 : Fin 1)), v, fun a => ?_⟩
  have hg : Host.gather gather_S8x512x32000_S8x512x1x1_S8x512x1_n_2_01_01_2_3_111 a (val_main_call1_v5 (F := Ideal) x1)
      (ix3 b s (0 : Fin 1)) = a (ix3 b s v) := hv a
  have hn : val_main_call1_v14 (F := Ideal) (ix3 b s (0 : Fin 1)) = (⊥ : EReal) := by
    rw [val_main_call1_v14_apply, val_main_call1_cst_apply]
    exact Cert.Consts.ofBits_nan
  unfold takeOf
  rw [select_apply, hg, hn]

/-- THE BRIDGE: under the precondition's finiteness the kernel's masked values are the reference's masked stage. -/
theorem masked_eq (x0 : (⟨3, ![8, 512, 32000]⟩ : Shape).Idx → EReal) (x1 : (⟨S8x512, .i32⟩ : BufTy).Contents (Elt Ideal))
    (x2 : (⟨S8x1, .i32⟩ : BufTy).Contents (Elt Ideal)) (hfin : ∀ i, ∃ y : ℝ, x0 i = (y : EReal)) :
    maskedK (F := Ideal) (lseOf x0) x0 x1 x2 = val_main_v13 (F := Ideal) x0 x1 x2 := by
  funext i
  obtain ⟨b, s, rfl⟩ : ∃ (b : Fin 8) (s : Fin 512), i = ix2 b s := ⟨i 0, i 1, eq_ix2 i⟩
  obtain ⟨cb, v, hv⟩ := takeOf_apply x1 b s
  obtain ⟨mm, ll, hM, hL⟩ := row_real (n := 32000) (by decide) (rowOf x0 b s) (fun k => hfin _)
  obtain ⟨y, hy⟩ := hfin (ix3 b s v)
  -- the kernel's value at the token
  have hK : maskedK (F := Ideal) (lseOf x0) x0 x1 x2 (ix2 b s)
      = Scalar.select (val_main_v11 (F := Ideal) x2 (ix2 b s))
          (((mm : EReal) + (ll : EReal)) - Scalar.select cb (y : EReal) ⊥) (0 : EReal) := by
    have hz : (broadcastInDim S8x512 ![] Facts₀.bcast_S_S8x512 (constant (F := Ideal) S_ .f32 0x00000000#32)) (ix2 b s) = (0 : EReal) :=
      (Cert.LibColumn.bcastInDim_scalar_apply _ _ (ix2 b s) ix0).trans Ideal.ofBits_zero_f32
    unfold maskedK
    rw [select_apply, subf_apply, shapeCast_ab1_ab_apply, shapeCast_ab1_ab_apply, hz, lseOf_ix3, hv x0, hy]
    unfold lseAt
    rw [hM, hL]
  -- the reference's value at the token
  have hR : val_main_v13 (F := Ideal) x0 x1 x2 (ix2 b s)
      = (-(Scalar.select cb (((y : EReal) - (mm : EReal)) - (ll : EReal)) ⊥))
          * (((val_main_v11 (F := Ideal) x2 (ix2 b s)).toNat : ℝ) : EReal) := by
    have h3 : val_main_v3 (F := Ideal) x0 x1 (ix2 b s)
        = Scalar.select cb (((y : EReal) - (mm : EReal)) - (ll : EReal)) ⊥ := by
      unfold val_main_v3
      rw [shapeCast_ab1_ab_apply, val_main_v2_eq, hv (val_main_v0 (F := Ideal) x0), logp_stage, hy, hM, hL]
    rw [val_main_v13_apply, val_main_v4_apply, val_main_v12_apply, h3]
    rfl
  rw [hK, hR, mask_eq _ _ _ rfl, token_eq mm ll y cb ⊥ rfl]

end Cert.Bridge

end
-- ==== Proof.FiniteInputs.lean ====
/-
  What the precondition says: every logit is a real number.

  The precondition is the conjunction, over all entries x of the logits, of |x| < +∞ (an `and`-reduction of the
  comparisons over every axis, required to be the one-bit word 1).  On the extended reals |x| = max x (-x) is +∞ at both
  infinities, so the comparison holds of an entry exactly when the entry is a real number.
-/
import proofs.«102475_j87522843558384_2_alg».proof.Pre_finite_inputs
import proofs.«102475_j87522843558384_2_alg».proof.Proof.Gen.Pre_finite_inputs
import proofs.«102475_j87522843558384_2_alg».proof.Proof.LibColumn
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

instance : Subsingleton S_.Idx := ⟨fun a b => funext fun d => d.elim0⟩

/-- The word 0x7F800000 is +∞. -/
theorem ofBits_pos_inf : Ideal.ofBits .f32 0x7F800000#32 = ⊤ := by
  simp [Ideal.ofBits, Ideal.ieee]

/-- An extended real whose absolute value is below +∞ is a real number. -/
theorem real_of_abs_lt_top (x : EReal)
    (h : Ideal.cmp .olt (max x (-x)) (Ideal.ofBits .f32 0x7F800000#32) = 1#1) : ∃ y : ℝ, x = (y : EReal) := by
  rw [ofBits_pos_inf] at h
  induction x using EReal.rec with
  | bot => simp [Ideal.cmp] at h
  | top => simp [Ideal.cmp] at h
  | coe r => exact ⟨r, rfl⟩

/-- Under the precondition every entry of the logits is a real number. -/
theorem real_of_pre (x0 : FVec Ideal S8x512x32000 .f32) (x1 : IVec S8x512 32) (x2 : IVec S8x1 32)
    (h : Cert.Pre_finite_inputs.fn (F := Ideal) x0 x1 x2 = fun _ => 1#1) (i : S8x512x32000.Idx) :
    ∃ y : ℝ, x0 i = (y : EReal) := by
  have h0 := congrFun h ix0
  dsimp only [Cert.Pre_finite_inputs.fn] at h0
  have hi := Host.reduce_andi_all _ _ _ _ _ h0 i
  have e : (broadcastInDim S8x512x32000 ![] Facts.bcast_S_S8x512x32000 (constant (F := Ideal) S_ .f32 0x7F800000#32)) i
      = Ideal.ofBits .f32 0x7F800000#32 :=
    Cert.LibColumn.bcastInDim_scalar_apply _ _ i ix0
  rw [cmpf_apply, e] at hi
  exact real_of_abs_lt_top (x0 i) hi

end Cert.FiniteInputs

end
-- ==== Proof.lean ====
/-
  The masked mean negative log-likelihood of a batch of token logits: a kernel computing the per-token log-sum-exp on the
  chip against jax's log-softmax on the host, equal on the extended reals.

  Inputs: logits x of shape [8, 512, 32000], a target class t per token [8, 512], a length n per batch [8, 1].  Both
  programs compute, per token (b, s), the negative log-likelihood of the target class, mask it by s < n(b), sum over s,
  divide by n(b), and average over the eight batches.
    The kernel program: a pallas_call over an 8 × 8 grid; point (b, j) loads rows 64j … 64j + 63 of batch b and stores, per
  row, M + log ∑ₖ exp (x(b, s, k) − M) with M the row's maximum.  On the host it then gathers the target logit x(b, s, t),
  subtracts it, selects against zero where s ≥ n(b), and runs the tail.
    The reference: log-softmax of the whole array, (x − M) − log ∑ₖ exp (x(b, s, k) − M), then the gather of the target
  entry, negation, multiplication by the mask read as a number, and the same tail.
  The gather is the same function in both programs (the target made non-negative, a bounds test, a fill value where it
  fails), applied to the logits in one and to the log-softmax in the other; where the target is out of range both read
  the fill value, a NaN pattern, which denotes −∞ on the extended reals, and both per-token values are then +∞.

  The argument, module by module:
    RowAlgebra   — for a nonempty row of reals M and L = log ∑ exp (· − M) are reals, (M + L) − y = −((y − M) − L), both
                   sides +∞ at y = −∞, and a select against zero is the product with the bit;
    KernelRow    — the kernel body stores, at row q of its block, the row's M + L (lane maximum, lane sum, the casts and
                   the column repeat read at an index);
    KernelArray  — the 64 blocks tile the output, and the input's and the output's index maps agree, so the output array
                   after the run is the log-sum-exp of every row of the logits;
    KernelTail   — the 45 host operations after the region, computed from the frame run's post: the result is the common
                   tail of the kernel's masked values;
    RefOps, RefRead — the reference's run and its stages (copies of the generated modules, see their headers);
    RefStages    — the reference's log-softmax at (b, s, k) is (x(b, s, k) − M) − L with the same M and L;
    Shared       — the gather, the masked values and the tail named once for both programs;
    Bridge       — the two masked arrays are equal index by index, given that every logit is real;
    FiniteInputs — the precondition says exactly that.
  The frames of the two kernel programs are the generated ones; the reference's frame is its run with the result
  forgotten; the idealization rewrote nothing, so `preserves` is trivial.
-/
import proofs.«102475_j87522843558384_2_alg».proof.Defs
import proofs.«102475_j87522843558384_2_alg».proof.Proof.Gen.Kernel
import proofs.«102475_j87522843558384_2_alg».proof.Proof.Gen.Kernel.Skeleton
import proofs.«102475_j87522843558384_2_alg».proof.Proof.Gen.Kernel.Launch
import proofs.«102475_j87522843558384_2_alg».proof.Proof.Gen.Kernel.Points
import proofs.«102475_j87522843558384_2_alg».proof.Proof.Gen.Kernel.Frame
import proofs.«102475_j87522843558384_2_alg».proof.Proof.Gen.KernelIdeal
import proofs.«102475_j87522843558384_2_alg».proof.Proof.Gen.KernelIdeal.Skeleton
import proofs.«102475_j87522843558384_2_alg».proof.Proof.Gen.KernelIdeal.Launch
import proofs.«102475_j87522843558384_2_alg».proof.Proof.Gen.KernelIdeal.Points
import proofs.«102475_j87522843558384_2_alg».proof.Proof.Gen.KernelIdeal.Frame
import proofs.«102475_j87522843558384_2_alg».proof.Proof.Gen.ReferenceIdeal
import proofs.«102475_j87522843558384_2_alg».proof.Proof.Gen.Pre_finite_inputs
import proofs.«102475_j87522843558384_2_alg».proof.Proof.RefOps
import proofs.«102475_j87522843558384_2_alg».proof.Proof.RefRead
import proofs.«102475_j87522843558384_2_alg».proof.Proof.Shared
import proofs.«102475_j87522843558384_2_alg».proof.Proof.KernelTail
import proofs.«102475_j87522843558384_2_alg».proof.Proof.Bridge
import proofs.«102475_j87522843558384_2_alg».proof.Proof.FiniteInputs
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals, from memories agreeing on the arguments and finite logits, both programs end with the common
    tail of one and the same array of masked per-token values. -/
theorem algebraic : Cert.algebraic_KernelIdeal_ReferenceIdeal := by
  intro m ρ m' ρ' hpre hagree
  refine ⟨_, Cert.KernelIdeal.TailValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v18_eq _ _ _).trans ?_
  rw [(hagree c).1, (hagree c).2.1, (hagree c).2.2, Cert.ReferenceIdeal.Shared.val_main_v18_tail]
  exact congrArg (fun w => Cert.ReferenceIdeal.Shared.tailOf (F := Ideal) w _)
    (Cert.Bridge.masked_eq _ _ _ (fun i => Cert.FiniteInputs.real_of_pre _ _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
